-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel

variable [Facts]

def fn {F : FTy → Type} [FloatOps F] (main_arg0 : FVec F S4x4096x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  main_v3
-- ==== Kernel.lean ====
abbrev S4x4096x2048 : Shape := ⟨3, ![4, 4096, 2048]⟩
abbrev S4x2x2048 : Shape := ⟨3, ![4, 2, 2048]⟩
abbrev S_ : Shape := ⟨0, ![]⟩
abbrev S4x1x2048 : Shape := ⟨3, ![4, 1, 2048]⟩
abbrev S4x2048 : Shape := ⟨2, ![4, 2048]⟩

abbrev nBuf : Table → Nat
  | .hbm => 2
  | _ => 0

abbrev bufTy : (tb : Table) → Fin (nBuf tb) → BufTy
  | .hbm, ⟨0, _⟩ => ⟨S4x4096x2048, .f32⟩
  | .hbm, ⟨1, _⟩ => ⟨S4x2x2048, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  inb_S4x2x2048_S4x1x2048_0_0_0 : ∀ a, (![0, 0, 0] : Fin 3 → Nat) a + S4x1x2048.size a ≤ S4x2x2048.size a
  squeezes_S4x1x2048_S4x2048 : S4x1x2048.Squeezes S4x2048
  inb_S4x4096x2048_S4x1x2048_0_0_0 : ∀ a, (![0, 0, 0] : Fin 3 → Nat) a + S4x1x2048.size a ≤ S4x4096x2048.size a
  inb_S4x2x2048_S4x1x2048_0_1_0 : ∀ a, (![0, 1, 0] : Fin 3 → Nat) a + S4x1x2048.size a ≤ S4x2x2048.size a
  hcc0_scratch0 : 0 + S_.numel ≤ 1
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scratch0 : DmaSems sig S_ := SemArray.consecutive 0 S_ hcc0_scratch0

class Facts : Prop extends Facts₀ where

variable [Facts]
-- ==== ReferenceIdeal.lean ====
abbrev S4x4096x2048 : Shape := ⟨3, ![4, 4096, 2048]⟩
abbrev S4x1x2048 : Shape := ⟨3, ![4, 1, 2048]⟩
abbrev S4x2048 : Shape := ⟨2, ![4, 2048]⟩
abbrev S_ : Shape := ⟨0, ![]⟩
abbrev S4 : Shape := ⟨1, ![4]⟩
abbrev S4x1 : Shape := ⟨2, ![4, 1]⟩
abbrev S4x2 : Shape := ⟨2, ![4, 2]⟩
abbrev S4x2x2048 : Shape := ⟨3, ![4, 2, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x2048, .f32⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i1⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S4, .i32⟩
  | .hbm, ⟨20, _⟩ => ⟨S4x1, .i32⟩
  | .hbm, ⟨21, _⟩ => ⟨S4x1, .i32⟩
  | .hbm, ⟨22, _⟩ => ⟨S4x2, .i32⟩
  | .hbm, ⟨23, _⟩ => ⟨S4x2048, .f32⟩
  | .hbm, ⟨24, _⟩ => ⟨S4x1x2048, .f32⟩
  | .hbm, ⟨25, _⟩ => ⟨S4x1x2048, .f32⟩
  | .hbm, ⟨26, _⟩ => ⟨S4x2x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_c_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  slices_S4x4096x2048_S4x1x2048_0_0_0 : S4x4096x2048.Slices ![0, 0, 0] S4x1x2048
  shapeCasts_S4x1x2048_S4x2048 : S4x1x2048.ShapeCasts S4x2048
  bcast_S_S4 : S_.BroadcastsInDim S4 (![] : Fin 0 → Fin S4.rank)
  bcast_S4_S4x1_0 : S4.BroadcastsInDim S4x1 (![0] : Fin 1 → Fin S4x1.rank)
  concatenates_S4x1_S4x1_S4x2_d1 : Shape.Concatenates [S4x1, S4x1] S4x2 1
  bcast_S4x2048_S4x1x2048_0_2 : S4x2048.BroadcastsInDim S4x1x2048 (![0, 2] : Fin 2 → Fin S4x1x2048.rank)
  concatenates_S4x1x2048_S4x1x2048_S4x2x2048_d1 : Shape.Concatenates [S4x1x2048, S4x1x2048] S4x2x2048 1
  gather_S4x4096x2048_S4x2_S4x2048_1_01_n_n_01_1_112048_wf : GatherDims.WF S4x4096x2048 S4x2 S4x2048 [1] [0, 1] [] [0, 1] [] 1 ![1, 1, 2048]

variable [Facts₀]

def gather_S4x4096x2048_S4x2_S4x2048_1_01_n_n_01_1_112048 : GatherDims S4x4096x2048 S4x2 S4x2048 where
  offsetDims := [1]
  collapsedSliceDims := [0, 1]
  operandBatchingDims := []
  startIndicesBatchingDims := []
  startIndexMap := [0, 1]
  indexVectorDim := 1
  sliceSizes := ![1, 1, 2048]
  wf := gather_S4x4096x2048_S4x2_S4x2048_1_01_n_n_01_1_112048_wf

class Facts : Prop extends Facts₀ where

variable [Facts]
-- ==== Proof.Pool.lean ====
/-
  What both programs compute: the "first" and the "last" pooled row of each batch element are both row 0 of the
  sequence axis, so the result is `out[b, s, k] = x[b, 0, k]` for `s = 0, 1`.
-/
import Idealize.ShloMosaic.Lib.ValueIdx

namespace Cert.Proof.Pool

open Idealize.ShloMosaic

/-- The pooled array: both slots of the middle axis hold row 0 of the input's sequence axis. -/
def pooled {α : Type} (x : (⟨3, ![4, 4096, 2048]⟩ : Shape).Idx → α) : (⟨3, ![4, 2, 2048]⟩ : Shape).Idx → α :=
  fun i => x (ValueIdx.ix3 (n0 := 4) (n1 := 4096) (n2 := 2048) (i 0) 0 (i 2))

theorem pooled_apply {α : Type} (x : (⟨3, ![4, 4096, 2048]⟩ : Shape).Idx → α) (i : (⟨3, ![4, 2, 2048]⟩ : Shape).Idx) :
    pooled x i = x (ValueIdx.ix3 (n0 := 4) (n1 := 4096) (n2 := 2048) (i 0) 0 (i 2)) := rfl

end Cert.Proof.Pool
-- ==== Proof.LibSqueezedRows.lean ====
/-
  The rows `[:, s, :]` of a rank-3 array, taken as a unit-stride slice of extent one on the middle axis and squeezed
  to rank 2: the element at `(y₀, y₁)` of the squeezed rows is the array's element at `(y₀, s, y₁)`.
-/
import Idealize.ShloMosaic.Lib.ValueIdx
import Idealize.ShloMosaic.Signature

namespace Cert.Proof.SqueezedRows

open Idealize.ShloMosaic Idealize.ShloMosaic.ValueIdx

variable {n0 n1 n2 : ℕ}

/-- Dropping a middle axis of extent one matches `(y₀, y₁)` with `(y₀, 0, y₁)`: the two have the same row-major
    position `y₀ · n₂ + y₁`. -/
theorem reshape_mid (h : (⟨2, ![n0, n2]⟩ : Shape).numel = (⟨3, ![n0, 1, n2]⟩ : Shape).numel) (y : (⟨2, ![n0, n2]⟩ : Shape).Idx) :
    Shape.reshapeEquiv h y = ix3 (n0 := n0) (n1 := 1) (n2 := n2) (y 0) 0 (y 1) := by
  refine Shape.reshapeEquiv_eq_of_rowMajor h ?_
  rw [Shape.rowMajor_val_three, Shape.rowMajor_val_two]
  show ((y 0).val * 1 + 0) * n2 + (y 1).val = (y 0).val * n2 + (y 1).val
  rw [Nat.mul_one, Nat.add_zero]

variable {sig : RefSig} {κ : Kind} {sp : Space} {e : EltTy}

/-- The squeezed rows `[:, s, :]` of a memref sit, in the memref's own indices, at `(y₀, s, y₁)`. -/
theorem emb_rows (M : Memref sig κ sp ⟨3, ![n0, n1, n2]⟩ e) (s : ℕ) (hs : s < n1)
    (inb : ∀ a, (![0, s, 0] : Fin 3 → ℕ) a + (![n0, 1, n2] : Fin 3 → ℕ) a ≤ (⟨3, ![n0, n1, n2]⟩ : Shape).size a)
    (hr : ∀ a, (Rect.unit (s := ⟨3, ![n0, n1, n2]⟩) ![0, s, 0] ![n0, 1, n2] inb).stride a = 1)
    (hq : (Rect.unit (s := ⟨3, ![n0, n1, n2]⟩) ![0, s, 0] ![n0, 1, n2] inb).shape.Squeezes ⟨2, ![n0, n2]⟩)
    (y : (⟨2, ![n0, n2]⟩ : Shape).Idx) :
    ((M.slice (Rect.unit (s := ⟨3, ![n0, n1, n2]⟩) ![0, s, 0] ![n0, 1, n2] inb) hr).squeeze ⟨2, ![n0, n2]⟩ hq).view.emb y
      = M.view.emb (ix3 (n0 := n0) (n1 := n1) (n2 := n2) (y 0) ⟨s, hs⟩ (y 1)) := by
  show M.view.emb ((Rect.unit (s := ⟨3, ![n0, n1, n2]⟩) ![0, s, 0] ![n0, 1, n2] inb).emb (Shape.reshapeEquiv hq.numel_eq y)) = _
  refine congrArg M.view.emb ?_
  rw [reshape_mid]
  funext a
  refine Fin.ext ?_
  rw [Rect.emb_apply]
  match a with
  | ⟨0, _⟩ => show 0 + 1 * (y 0).val = (y 0).val; omega
  | ⟨1, _⟩ => show s + 1 * 0 = s; omega
  | ⟨2, _⟩ => show 0 + 1 * (y 1).val = (y 1).val; omega

end Cert.Proof.SqueezedRows
-- ==== Proof.RunBits.lean ====
/-
  The run of the program `Kernel`: one scalar-subcore kernel on SparseCore 0. Its sequencer starts two copies of the
  rows `x[:, 0, :]` — one into `out[:, 0, :]`, one into `out[:, 1, :]` — on one DMA semaphore and then waits twice on it,
  touching neither array in between; the TensorCore starts the SparseCore, waits for it and returns.
  Stated for every float instance: every weakly fair execution of the device's threads terminates, nothing faults,
  `x` ends unchanged and `out` ends at `out[b, s, k] = x[b, 0, k]` (`Pool.pooled`).
  The two copies are a batch on one cell: a wait that is not the last learns nothing, the last one hands both
  destinations back written and the source whole; the source, read by both copies at once, is lent half and half.
-/
import proofs.«207487_g54228257079582_cont_9to1c4b_632_7_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«207487_g54228257079582_cont_9to1c4b_632_7_alg».proof.Proof.Gen.Kernel
import proofs.«207487_g54228257079582_cont_9to1c4b_632_7_alg».proof.Proof.Gen.Kernel.Skeleton
import proofs.«207487_g54228257079582_cont_9to1c4b_632_7_alg».proof.Proof.Pool
import proofs.«207487_g54228257079582_cont_9to1c4b_632_7_alg».proof.Proof.LibSqueezedRows

noncomputable section

namespace Cert.Proof.RunBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3 eq_ix3)
open Cert.Proof.Pool (pooled)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

-- the kernel's memrefs, spelt as the body spells them
local notation "xW" => (Memref.whole Cert.Kernel.main_arg0_scs : Memref Cert.Kernel.sig Kind.scScalar Space.hbm Cert.Kernel.S4x4096x2048 EltTy.f32)
local notation "tW" => (Memref.whole Cert.Kernel.main_v0_scs : Memref Cert.Kernel.sig Kind.scScalar Space.hbm Cert.Kernel.S4x2x2048 EltTy.f32)
abbrev xLoc (d : Dev nD) : Loc nD τ sig := (SparseCore.T d).loc main_arg0
abbrev tLoc (d : Dev nD) : Loc nD τ sig := (SparseCore.T d).loc main_v0

/-- The rows `x[:, 0, :]`, the source of both copies. -/
abbrev srcRows : Memref sig .scScalar .hbm S4x2048 .f32 :=
  ((xW).slice (Rect.unit (s := S4x4096x2048) ![0, 0, 0] S4x1x2048.size inb_S4x4096x2048_S4x1x2048_0_0_0) (fun _ => rfl)).squeeze S4x2048 squeezes_S4x1x2048_S4x2048
/-- The rows `out[:, 0, :]` and `out[:, 1, :]`, the two destinations. -/
abbrev dstRows0 : Memref sig .scScalar .hbm S4x2048 .f32 :=
  ((tW).slice (Rect.unit (s := S4x2x2048) ![0, 0, 0] S4x1x2048.size inb_S4x2x2048_S4x1x2048_0_0_0) (fun _ => rfl)).squeeze S4x2048 squeezes_S4x1x2048_S4x2048
abbrev dstRows1 : Memref sig .scScalar .hbm S4x2048 .f32 :=
  ((tW).slice (Rect.unit (s := S4x2x2048) ![0, 1, 0] S4x1x2048.size inb_S4x2x2048_S4x1x2048_0_1_0) (fun _ => rfl)).squeeze S4x2048 squeezes_S4x1x2048_S4x2048

/-! ## The value: both destinations written with the source rows is the pooled array -/

section Value

/-- What a copy moves: the source rows of `x`'s contents `f`. -/
abbrev moved (f : S4x4096x2048.Idx → Elt F .f32) : S4x2048.Idx → Elt F .f32 :=
  ReadAs.same.apply (srcRows.view.read (Elt F) f)

theorem moved_apply (f : S4x4096x2048.Idx → Elt F .f32) (y : S4x2048.Idx) :
    moved f y = f (ix3 (n0 := 4) (n1 := 4096) (n2 := 2048) (y 0) 0 (y 1)) := by
  show _root_.cast _ (f (srcRows.view.emb y)) = _
  rw [cast_eq]
  exact congrArg f (SqueezedRows.emb_rows (xW) 0 (by decide) _ _ _ y)

theorem dst0_emb (y : S4x2048.Idx) : dstRows0.view.emb y = ix3 (n0 := 4) (n1 := 2) (n2 := 2048) (y 0) 0 (y 1) :=
  SqueezedRows.emb_rows (tW) 0 (by decide) _ _ _ y
theorem dst1_emb (y : S4x2048.Idx) : dstRows1.view.emb y = ix3 (n0 := 4) (n1 := 2) (n2 := 2048) (y 0) 1 (y 1) :=
  SqueezedRows.emb_rows (tW) 1 (by decide) _ _ _ y

/-- Slot 0 then slot 1 of `out` written with the source rows, over any earlier contents `g`: every element of `out`
    lies in exactly one of the two slots, and there it holds `x[b, 0, k]`. -/
theorem written_eq (f : S4x4096x2048.Idx → Elt F .f32) (g : S4x2x2048.Idx → Elt F .f32) :
    dstRows1.view.write (Elt F) (dstRows0.view.write (Elt F) g (moved f) Finset.univ) (moved f) Finset.univ = pooled f := by
  funext i
  obtain ⟨b, s, k, rfl⟩ : ∃ (b : Fin 4) (s : Fin 2) (k : Fin 2048), i = ix3 b s k := ⟨i 0, i 1, i 2, eq_ix3 i⟩
  match s with
  | ⟨1, _⟩ =>
    have hi : (ix3 b (1 : Fin 2) k : S4x2x2048.Idx) = dstRows1.view.emb (ix2 b k) := (dst1_emb (ix2 b k)).symm
    show dstRows1.view.write (Elt F) _ (moved f) Finset.univ (ix3 b (1 : Fin 2) k) = _
    rw [hi, View.write_emb_of_mem _ _ (Finset.mem_univ _), cast_eq, moved_apply]
    rfl
  | ⟨0, _⟩ =>
    have hi : (ix3 b (0 : Fin 2) k : S4x2x2048.Idx) = dstRows0.view.emb (ix2 b k) := (dst0_emb (ix2 b k)).symm
    have hout : (ix3 b (0 : Fin 2) k : S4x2x2048.Idx) ∉ dstRows1.view.setOn Finset.univ := by
      intro hmem
      obtain ⟨y, -, hy⟩ := Finset.mem_map.mp hmem
      have h1 := congrFun ((dst1_emb y).symm.trans hy) ⟨1, by decide⟩
      exact absurd (show (1 : Fin 2) = 0 from h1) (by decide)
    show dstRows1.view.write (Elt F) _ (moved f) Finset.univ (ix3 b (0 : Fin 2) k) = _
    rw [View.write_of_not_mem _ _ _ hout, hi, View.write_emb_of_mem _ _ (Finset.mem_univ _), cast_eq, moved_apply]
    rfl

end Value

variable [FloatOps F]

/-- `x` whole at its launch contents, `out` whole at `f` (the TensorCore's view of the arrays). -/
abbrev xPts (d : Dev nD) : sProp 𝕄 := xLoc d ↦{fullShare} m (xLoc d)
abbrev tPts (d : Dev nD) (f : Buf (Elt F) (tLoc d)) : sProp 𝕄 := tLoc d ↦{fullShare} f

/-- What the call hands the SparseCore: `x`, and `out` at whatever it holds. -/
abbrev handed (d : Dev nD) : sProp 𝕄 := iprop(xPts m d ∗ ∃ f, tPts d f)
/-- What the call takes back: `x` unchanged, `out` pooled. -/
abbrev back (d : Dev nD) : sProp 𝕄 := iprop(xPts m d ∗ tPts d (pooled (m (xLoc d))))

def P : (K (F := F)).Pay (nD := nD) (Val := Elt F) (Name := ℕ) (U := UU) where
  st := fun _ d _ => handed m d
  dn := fun _ d _ => back m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on the sequencer -/

section Body

variable (d : Dev nD)

def coordsS (c : Fin (grid0.bound 0)) : grid0.Coords := fun | 0 => c | ⟨_ + 1, h⟩ => absurd h (Nat.not_lt.2 (Nat.le_add_left _ _))

abbrev c0cell (c : Fin τ.nSC) : GSem nD τ sig := (S d c, .dma cc0_scratch0.sem)

omit [FloatOps F] in
theorem ownSems0_S (c : Fin τ.nSC) :
    (ownSems0 (S d c) : sProp 𝕄) = iprop(semVal (c0cell d c) 0 ∗ bigSep ((ownCells (S d c)).erase (c0cell d c)) fun g => semVal g 0) := by
  unfold SparseCore.Cfg.ownSems0
  exact SparseCore.bigSep_erase' ((mem_ownCells (g := c0cell d c)).mpr ⟨rfl, by show (SemLoc.dma cc0_scratch0.sem : SemLoc sig).isScoped .scScalar = true; decide⟩)

omit [FloatOps F] in
/-- The arrays as the sequencer's memrefs address them are the TensorCore's arrays. -/
theorem pts_x (c : Fin τ.nSC) (f : Buf (Elt F) (xLoc d)) :
    ((xW).view.loc (S d c) ↦{fullShare} f : sProp 𝕄) = xLoc d ↦{fullShare} f := by
  simp only [Memref.view_whole, View.set_whole]
omit [FloatOps F] in
theorem pts_t (c : Fin τ.nSC) (f : Buf (Elt F) (tLoc d)) :
    ((tW).view.loc (S d c) ↦{fullShare} f : sProp 𝕄) = tLoc d ↦{fullShare} f := by
  simp only [Memref.view_whole, View.set_whole]

/-- SparseCore 0's sequencer thread. -/
abbrev S0 (h : 0 < grid0.bound 0) : Thread nD τ := S d ((⟨0, h⟩ : Fin (grid0.bound 0)).castLE hcore0)

/-- The kernel on the sequencer: both copies issued as a batch of two on the one cell, the first wait silent, the
    second handing back `x` whole and `out` with both slots written. -/
theorem body₀ [∀ e, Nonempty (Elt F e)] (h : 0 < grid0.bound 0) (O : CellTallies nD τ sig (HIx 1)) (W : Waits sig (HIx 1)) (hO : ∀ g, O g none = 0) :
    iprop(levAts (K (F := F)).L (K (F := F)).lev ∗ emp ∗ handed m d
        ∗ scopedBufs (S0 d h) ∗ scopedSems0 (S0 d h) ∗ owes (S0 d h) O W)
      ⊢ wp frame (wpE (defs₀ (F := F)) 𝒱₀ (S0 d h) none) Set.univ
          (cc0__first_last_pool (coordsS ⟨0, h⟩) xW (Memref.isWhole_whole _) tW (Memref.isWhole_whole _) cc0_scratch0)
          fun _ => iprop(back m d ∗ scopedBufs (S0 d h) ∗ scopedSems0 (S0 d h) ∗ ∃ W', ⌜∀ p ∈ W', p ∈ W ∨ p.2 = none⌝ ∗ owes (S0 d h) O W') := by
  have _plan : Transfers.BatchOf (S0 d h) (SemLoc.dma (sig := sig) cc0_scratch0.sem) 2 (windows := true) := trivial
  simp only [cc0__first_last_pool_eq_skeleton]; unfold cc0__first_last_pool_skel
  iintro ⟨#Hlv, -, ⟨Hx, %ft, Ht⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨Hsem, Hrest⟩
  ihave Hmw := ((K (F := F)).mayWaits_none (thr := S0 d h) hO) $$ Hlv
  ihave Hx' := (Entails.of_eq (pts_x (F := F) d (((⟨0, h⟩ : Fin (grid0.bound 0))).castLE hcore0) _).symm) $$ Hx
  ihave Ht' := (Entails.of_eq (pts_t (F := F) d (((⟨0, h⟩ : Fin (grid0.bound 0))).castLE hcore0) _).symm) $$ Ht
  sl_exec
  sl_step
  isplitl [Hx' Ht']
  · isplitl [Hx']; · iapply (Entails.of_eq (pts_x (F := F) d _ _)); iexact Hx'
    iapply (Entails.of_eq (pts_t (F := F) d (((⟨0, h⟩ : Fin (grid0.bound 0))).castLE hcore0) (pooled (m (xLoc d)))))
    iapply (Entails.of_eq (congrArg (fun f => ((tW).view.loc (S0 d h) ↦{fullShare} f : sProp 𝕄)) (written_eq (F := F) (m (xLoc d)) ft)))
    iexact Ht'
  isplitl [Hsb]; · iexact Hsb
  isplitl [Hsem Hrest Hsubs]
  · iapply (SparseCore.Cfg.scopedSems0_S_intro (Val := Elt F) d _)
    isplitl [Hsem Hrest]
    · rw [ownSems0_S]
      isplitl [Hsem]; · iexact Hsem
      iexact Hrest
    · iexact Hsubs
  iexists (insert (SemLoc.dma cc0_scratch0.sem, (default : HIx 1)) (insert (SemLoc.dma cc0_scratch0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Body

/-! ## The launch theorem's obligation -/

theorem defs₀_scalar (c : Fin τ.nSC) :
    defs₀ (F := F) (.scScalar c) 0 ()
      = SparseCore.onCore hcore0 (fun c => cc0__first_last_pool (coordsS c) xW (Memref.isWhole_whole _) tW (Memref.isWhole_whole _) cc0_scratch0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scalar kernel's obligation at call 0: the one SparseCore of its grid runs `body₀`. -/
theorem scalarObl [∀ e, Nonempty (Elt F e)] : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ handed m d ∗ _) ⊢ wp _ _ _ _ (fun _ => iprop(back m d ∗ _))
  match c with
  | ⟨0, h⟩ => exact (body₀ m d h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_v0)) := by
  unfold unscopedBufs
  rw [show (Finset.univ.filter fun b : Ref sig .tc => ¬ b.isScoped) = {main_arg0, main_v0} by decide,
    SparseCore.bigSep_insert' (by decide), bigSep_singleton]

/-- What the call takes for its one SparseCore, and what it hands back. -/
theorem st0_eq (d : Dev nD) : (bigSep Finset.univ fun c : Fin ((K (F := F)).nCore 0) => (P m).st 0 d c) = handed m d := by
  show (bigSep (Finset.univ : Finset (Fin 1)) fun _ => handed m d) = _
  rw [show (Finset.univ : Finset (Fin 1)) = {0} by decide, bigSep_singleton]
theorem dn0_eq (d : Dev nD) : (bigSep Finset.univ fun c : Fin ((K (F := F)).nCore 0) => (P m).dn 0 d c) = back m d := by
  show (bigSep (Finset.univ : Finset (Fin 1)) fun _ => back m d) = _
  rw [show (Finset.univ : Finset (Fin 1)) = {0} by decide, bigSep_singleton]

/-- What @main leaves the claim: `x` at its launch contents and `out` pooled. -/
abbrev FIN (d : Dev nD) : sProp 𝕄 := back m d

/-- @main on device `d`'s TensorCore: the one call, handing `x` and `out` over and taking them back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht⟩, -, -⟩, -⟩
  iapply ((K (F := F)).wp_run (D (F := F)) 𝒱 (EH := EH) (P := P m) κ d 0) $$ [Hst Hx Ht]
  isplitr; · iexact Hctx
  isplitl [Hst]; · iexact Hst
  isplitl [Hx Ht]
  · rw [st0_eq]
    isplitl [Hx]; · iexact Hx
    iexists _; iexact Ht
  iintro ⟨Hst, Hdn⟩
  ihave Hdn' := (Entails.of_eq (dn0_eq m d)) $$ Hdn
  icases Hdn' with ⟨Hx, Ht⟩
  imodintro
  isplitl [Hst]; · iexact Hst
  isplitl [Hx]; · iexact Hx
  iexact Ht

def fq (d : Dev nD) (s' : Phys nD τ sig (Elt F)) : Prop :=
  s'.mem.mem (tLoc d) = pooled (m (xLoc d)) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Ht⟩, HSI⟩
  ihave H := (persistent_entails_right (SI_pointsTo_agree (st := s') (ℓ := tLoc d) (I := Finset.univ) (q := fullShare) (f := pooled (m (xLoc d))))) $$ [HSI Ht]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r =>
  ∀ c : Dev nD, r.2.mem (tLoc c) = pooled (m (xLoc c)) ∧ r.2.mem (xLoc c) = m (xLoc c)

/-- Every weakly fair execution of the device's threads terminates without a fault, `out` pooled and `x` unchanged. -/
theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.RunBits

end
-- ==== Proof.RunIdeal.lean ====
/-
  The run of the program `KernelIdeal`: one scalar-subcore kernel on SparseCore 0. Its sequencer starts two copies of the
  rows `x[:, 0, :]` — one into `out[:, 0, :]`, one into `out[:, 1, :]` — on one DMA semaphore and then waits twice on it,
  touching neither array in between; the TensorCore starts the SparseCore, waits for it and returns.
  Stated for every float instance: every weakly fair execution of the device's threads terminates, nothing faults,
  `x` ends unchanged and `out` ends at `out[b, s, k] = x[b, 0, k]` (`Pool.pooled`).
  The two copies are a batch on one cell: a wait that is not the last learns nothing, the last one hands both
  destinations back written and the source whole; the source, read by both copies at once, is lent half and half.
-/
import proofs.«207487_g54228257079582_cont_9to1c4b_632_7_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«207487_g54228257079582_cont_9to1c4b_632_7_alg».proof.Proof.Gen.KernelIdeal
import proofs.«207487_g54228257079582_cont_9to1c4b_632_7_alg».proof.Proof.Gen.KernelIdeal.Skeleton
import proofs.«207487_g54228257079582_cont_9to1c4b_632_7_alg».proof.Proof.Pool
import proofs.«207487_g54228257079582_cont_9to1c4b_632_7_alg».proof.Proof.LibSqueezedRows

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3 eq_ix3)
open Cert.Proof.Pool (pooled)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

-- the kernel's memrefs, spelt as the body spells them
local notation "xW" => (Memref.whole Cert.KernelIdeal.main_arg0_scs : Memref Cert.KernelIdeal.sig Kind.scScalar Space.hbm Cert.KernelIdeal.S4x4096x2048 EltTy.f32)
local notation "tW" => (Memref.whole Cert.KernelIdeal.main_v0_scs : Memref Cert.KernelIdeal.sig Kind.scScalar Space.hbm Cert.KernelIdeal.S4x2x2048 EltTy.f32)
abbrev xLoc (d : Dev nD) : Loc nD τ sig := (SparseCore.T d).loc main_arg0
abbrev tLoc (d : Dev nD) : Loc nD τ sig := (SparseCore.T d).loc main_v0

/-- The rows `x[:, 0, :]`, the source of both copies. -/
abbrev srcRows : Memref sig .scScalar .hbm S4x2048 .f32 :=
  ((xW).slice (Rect.unit (s := S4x4096x2048) ![0, 0, 0] S4x1x2048.size inb_S4x4096x2048_S4x1x2048_0_0_0) (fun _ => rfl)).squeeze S4x2048 squeezes_S4x1x2048_S4x2048
/-- The rows `out[:, 0, :]` and `out[:, 1, :]`, the two destinations. -/
abbrev dstRows0 : Memref sig .scScalar .hbm S4x2048 .f32 :=
  ((tW).slice (Rect.unit (s := S4x2x2048) ![0, 0, 0] S4x1x2048.size inb_S4x2x2048_S4x1x2048_0_0_0) (fun _ => rfl)).squeeze S4x2048 squeezes_S4x1x2048_S4x2048
abbrev dstRows1 : Memref sig .scScalar .hbm S4x2048 .f32 :=
  ((tW).slice (Rect.unit (s := S4x2x2048) ![0, 1, 0] S4x1x2048.size inb_S4x2x2048_S4x1x2048_0_1_0) (fun _ => rfl)).squeeze S4x2048 squeezes_S4x1x2048_S4x2048

/-! ## The value: both destinations written with the source rows is the pooled array -/

section Value

/-- What a copy moves: the source rows of `x`'s contents `f`. -/
abbrev moved (f : S4x4096x2048.Idx → Elt F .f32) : S4x2048.Idx → Elt F .f32 :=
  ReadAs.same.apply (srcRows.view.read (Elt F) f)

theorem moved_apply (f : S4x4096x2048.Idx → Elt F .f32) (y : S4x2048.Idx) :
    moved f y = f (ix3 (n0 := 4) (n1 := 4096) (n2 := 2048) (y 0) 0 (y 1)) := by
  show _root_.cast _ (f (srcRows.view.emb y)) = _
  rw [cast_eq]
  exact congrArg f (SqueezedRows.emb_rows (xW) 0 (by decide) _ _ _ y)

theorem dst0_emb (y : S4x2048.Idx) : dstRows0.view.emb y = ix3 (n0 := 4) (n1 := 2) (n2 := 2048) (y 0) 0 (y 1) :=
  SqueezedRows.emb_rows (tW) 0 (by decide) _ _ _ y
theorem dst1_emb (y : S4x2048.Idx) : dstRows1.view.emb y = ix3 (n0 := 4) (n1 := 2) (n2 := 2048) (y 0) 1 (y 1) :=
  SqueezedRows.emb_rows (tW) 1 (by decide) _ _ _ y

/-- Slot 0 then slot 1 of `out` written with the source rows, over any earlier contents `g`: every element of `out`
    lies in exactly one of the two slots, and there it holds `x[b, 0, k]`. -/
theorem written_eq (f : S4x4096x2048.Idx → Elt F .f32) (g : S4x2x2048.Idx → Elt F .f32) :
    dstRows1.view.write (Elt F) (dstRows0.view.write (Elt F) g (moved f) Finset.univ) (moved f) Finset.univ = pooled f := by
  funext i
  obtain ⟨b, s, k, rfl⟩ : ∃ (b : Fin 4) (s : Fin 2) (k : Fin 2048), i = ix3 b s k := ⟨i 0, i 1, i 2, eq_ix3 i⟩
  match s with
  | ⟨1, _⟩ =>
    have hi : (ix3 b (1 : Fin 2) k : S4x2x2048.Idx) = dstRows1.view.emb (ix2 b k) := (dst1_emb (ix2 b k)).symm
    show dstRows1.view.write (Elt F) _ (moved f) Finset.univ (ix3 b (1 : Fin 2) k) = _
    rw [hi, View.write_emb_of_mem _ _ (Finset.mem_univ _), cast_eq, moved_apply]
    rfl
  | ⟨0, _⟩ =>
    have hi : (ix3 b (0 : Fin 2) k : S4x2x2048.Idx) = dstRows0.view.emb (ix2 b k) := (dst0_emb (ix2 b k)).symm
    have hout : (ix3 b (0 : Fin 2) k : S4x2x2048.Idx) ∉ dstRows1.view.setOn Finset.univ := by
      intro hmem
      obtain ⟨y, -, hy⟩ := Finset.mem_map.mp hmem
      have h1 := congrFun ((dst1_emb y).symm.trans hy) ⟨1, by decide⟩
      exact absurd (show (1 : Fin 2) = 0 from h1) (by decide)
    show dstRows1.view.write (Elt F) _ (moved f) Finset.univ (ix3 b (0 : Fin 2) k) = _
    rw [View.write_of_not_mem _ _ _ hout, hi, View.write_emb_of_mem _ _ (Finset.mem_univ _), cast_eq, moved_apply]
    rfl

end Value

variable [FloatOps F]

/-- `x` whole at its launch contents, `out` whole at `f` (the TensorCore's view of the arrays). -/
abbrev xPts (d : Dev nD) : sProp 𝕄 := xLoc d ↦{fullShare} m (xLoc d)
abbrev tPts (d : Dev nD) (f : Buf (Elt F) (tLoc d)) : sProp 𝕄 := tLoc d ↦{fullShare} f

/-- What the call hands the SparseCore: `x`, and `out` at whatever it holds. -/
abbrev handed (d : Dev nD) : sProp 𝕄 := iprop(xPts m d ∗ ∃ f, tPts d f)
/-- What the call takes back: `x` unchanged, `out` pooled. -/
abbrev back (d : Dev nD) : sProp 𝕄 := iprop(xPts m d ∗ tPts d (pooled (m (xLoc d))))

def P : (K (F := F)).Pay (nD := nD) (Val := Elt F) (Name := ℕ) (U := UU) where
  st := fun _ d _ => handed m d
  dn := fun _ d _ => back m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on the sequencer -/

section Body

variable (d : Dev nD)

def coordsS (c : Fin (grid0.bound 0)) : grid0.Coords := fun | 0 => c | ⟨_ + 1, h⟩ => absurd h (Nat.not_lt.2 (Nat.le_add_left _ _))

abbrev c0cell (c : Fin τ.nSC) : GSem nD τ sig := (S d c, .dma cc0_scratch0.sem)

omit [FloatOps F] in
theorem ownSems0_S (c : Fin τ.nSC) :
    (ownSems0 (S d c) : sProp 𝕄) = iprop(semVal (c0cell d c) 0 ∗ bigSep ((ownCells (S d c)).erase (c0cell d c)) fun g => semVal g 0) := by
  unfold SparseCore.Cfg.ownSems0
  exact SparseCore.bigSep_erase' ((mem_ownCells (g := c0cell d c)).mpr ⟨rfl, by show (SemLoc.dma cc0_scratch0.sem : SemLoc sig).isScoped .scScalar = true; decide⟩)

omit [FloatOps F] in
/-- The arrays as the sequencer's memrefs address them are the TensorCore's arrays. -/
theorem pts_x (c : Fin τ.nSC) (f : Buf (Elt F) (xLoc d)) :
    ((xW).view.loc (S d c) ↦{fullShare} f : sProp 𝕄) = xLoc d ↦{fullShare} f := by
  simp only [Memref.view_whole, View.set_whole]
omit [FloatOps F] in
theorem pts_t (c : Fin τ.nSC) (f : Buf (Elt F) (tLoc d)) :
    ((tW).view.loc (S d c) ↦{fullShare} f : sProp 𝕄) = tLoc d ↦{fullShare} f := by
  simp only [Memref.view_whole, View.set_whole]

/-- SparseCore 0's sequencer thread. -/
abbrev S0 (h : 0 < grid0.bound 0) : Thread nD τ := S d ((⟨0, h⟩ : Fin (grid0.bound 0)).castLE hcore0)

/-- The kernel on the sequencer: both copies issued as a batch of two on the one cell, the first wait silent, the
    second handing back `x` whole and `out` with both slots written. -/
theorem body₀ [∀ e, Nonempty (Elt F e)] (h : 0 < grid0.bound 0) (O : CellTallies nD τ sig (HIx 1)) (W : Waits sig (HIx 1)) (hO : ∀ g, O g none = 0) :
    iprop(levAts (K (F := F)).L (K (F := F)).lev ∗ emp ∗ handed m d
        ∗ scopedBufs (S0 d h) ∗ scopedSems0 (S0 d h) ∗ owes (S0 d h) O W)
      ⊢ wp frame (wpE (defs₀ (F := F)) 𝒱₀ (S0 d h) none) Set.univ
          (cc0__first_last_pool (coordsS ⟨0, h⟩) xW (Memref.isWhole_whole _) tW (Memref.isWhole_whole _) cc0_scratch0)
          fun _ => iprop(back m d ∗ scopedBufs (S0 d h) ∗ scopedSems0 (S0 d h) ∗ ∃ W', ⌜∀ p ∈ W', p ∈ W ∨ p.2 = none⌝ ∗ owes (S0 d h) O W') := by
  have _plan : Transfers.BatchOf (S0 d h) (SemLoc.dma (sig := sig) cc0_scratch0.sem) 2 (windows := true) := trivial
  simp only [cc0__first_last_pool_eq_skeleton]; unfold cc0__first_last_pool_skel
  iintro ⟨#Hlv, -, ⟨Hx, %ft, Ht⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨Hsem, Hrest⟩
  ihave Hmw := ((K (F := F)).mayWaits_none (thr := S0 d h) hO) $$ Hlv
  ihave Hx' := (Entails.of_eq (pts_x (F := F) d (((⟨0, h⟩ : Fin (grid0.bound 0))).castLE hcore0) _).symm) $$ Hx
  ihave Ht' := (Entails.of_eq (pts_t (F := F) d (((⟨0, h⟩ : Fin (grid0.bound 0))).castLE hcore0) _).symm) $$ Ht
  sl_exec
  sl_step
  isplitl [Hx' Ht']
  · isplitl [Hx']; · iapply (Entails.of_eq (pts_x (F := F) d _ _)); iexact Hx'
    iapply (Entails.of_eq (pts_t (F := F) d (((⟨0, h⟩ : Fin (grid0.bound 0))).castLE hcore0) (pooled (m (xLoc d)))))
    iapply (Entails.of_eq (congrArg (fun f => ((tW).view.loc (S0 d h) ↦{fullShare} f : sProp 𝕄)) (written_eq (F := F) (m (xLoc d)) ft)))
    iexact Ht'
  isplitl [Hsb]; · iexact Hsb
  isplitl [Hsem Hrest Hsubs]
  · iapply (SparseCore.Cfg.scopedSems0_S_intro (Val := Elt F) d _)
    isplitl [Hsem Hrest]
    · rw [ownSems0_S]
      isplitl [Hsem]; · iexact Hsem
      iexact Hrest
    · iexact Hsubs
  iexists (insert (SemLoc.dma cc0_scratch0.sem, (default : HIx 1)) (insert (SemLoc.dma cc0_scratch0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Body

/-! ## The launch theorem's obligation -/

theorem defs₀_scalar (c : Fin τ.nSC) :
    defs₀ (F := F) (.scScalar c) 0 ()
      = SparseCore.onCore hcore0 (fun c => cc0__first_last_pool (coordsS c) xW (Memref.isWhole_whole _) tW (Memref.isWhole_whole _) cc0_scratch0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scalar kernel's obligation at call 0: the one SparseCore of its grid runs `body₀`. -/
theorem scalarObl [∀ e, Nonempty (Elt F e)] : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ handed m d ∗ _) ⊢ wp _ _ _ _ (fun _ => iprop(back m d ∗ _))
  match c with
  | ⟨0, h⟩ => exact (body₀ m d h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_v0)) := by
  unfold unscopedBufs
  rw [show (Finset.univ.filter fun b : Ref sig .tc => ¬ b.isScoped) = {main_arg0, main_v0} by decide,
    SparseCore.bigSep_insert' (by decide), bigSep_singleton]

/-- What the call takes for its one SparseCore, and what it hands back. -/
theorem st0_eq (d : Dev nD) : (bigSep Finset.univ fun c : Fin ((K (F := F)).nCore 0) => (P m).st 0 d c) = handed m d := by
  show (bigSep (Finset.univ : Finset (Fin 1)) fun _ => handed m d) = _
  rw [show (Finset.univ : Finset (Fin 1)) = {0} by decide, bigSep_singleton]
theorem dn0_eq (d : Dev nD) : (bigSep Finset.univ fun c : Fin ((K (F := F)).nCore 0) => (P m).dn 0 d c) = back m d := by
  show (bigSep (Finset.univ : Finset (Fin 1)) fun _ => back m d) = _
  rw [show (Finset.univ : Finset (Fin 1)) = {0} by decide, bigSep_singleton]

/-- What @main leaves the claim: `x` at its launch contents and `out` pooled. -/
abbrev FIN (d : Dev nD) : sProp 𝕄 := back m d

/-- @main on device `d`'s TensorCore: the one call, handing `x` and `out` over and taking them back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht⟩, -, -⟩, -⟩
  iapply ((K (F := F)).wp_run (D (F := F)) 𝒱 (EH := EH) (P := P m) κ d 0) $$ [Hst Hx Ht]
  isplitr; · iexact Hctx
  isplitl [Hst]; · iexact Hst
  isplitl [Hx Ht]
  · rw [st0_eq]
    isplitl [Hx]; · iexact Hx
    iexists _; iexact Ht
  iintro ⟨Hst, Hdn⟩
  ihave Hdn' := (Entails.of_eq (dn0_eq m d)) $$ Hdn
  icases Hdn' with ⟨Hx, Ht⟩
  imodintro
  isplitl [Hst]; · iexact Hst
  isplitl [Hx]; · iexact Hx
  iexact Ht

def fq (d : Dev nD) (s' : Phys nD τ sig (Elt F)) : Prop :=
  s'.mem.mem (tLoc d) = pooled (m (xLoc d)) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Ht⟩, HSI⟩
  ihave H := (persistent_entails_right (SI_pointsTo_agree (st := s') (ℓ := tLoc d) (I := Finset.univ) (q := fullShare) (f := pooled (m (xLoc d))))) $$ [HSI Ht]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r =>
  ∀ c : Dev nD, r.2.mem (tLoc c) = pooled (m (xLoc c)) ∧ r.2.mem (xLoc c) = m (xLoc c)

/-- Every weakly fair execution of the device's threads terminates without a fault, `out` pooled and `x` unchanged. -/
theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.RunIdeal

end
-- ==== Proof.LibGatherRowCol.lean ====
/-
  The gather `x[r, c, :]` of a rank-3 array at a two-column array of start indices `(r, c)` — offset_dims [1],
  collapsed_slice_dims [0, 1], start_index_map [0, 1], index_vector_dim 1, slice_sizes [1, 1, C] — read at an index:
  result `(n, k)` is the array at (clamped signed `idx[n, 0]`, clamped signed `idx[n, 1]`, `k`).
-/
import Idealize.ShloMosaic.Lib.ValueIdx

namespace Cert.Proof.GatherRowCol

open Idealize.ShloMosaic Idealize.ShloMosaic.ValueIdx

variable {α : Type}

/-- Those dimension numbers for an operand `[A, B, C]`, start indices `[N, 2]` and result `[N, C]`. -/
abbrev pickDims (A B C N : Nat)
    (wf : GatherDims.WF ⟨3, ![A, B, C]⟩ ⟨2, ![N, 2]⟩ ⟨2, ![N, C]⟩ [1] [0, 1] [] [0, 1] [] 1 ![1, 1, C]) :
    GatherDims ⟨3, ![A, B, C]⟩ ⟨2, ![N, 2]⟩ ⟨2, ![N, C]⟩ where
  offsetDims := [1]
  collapsedSliceDims := [0, 1]
  operandBatchingDims := []
  startIndicesBatchingDims := []
  startIndexMap := [0, 1]
  indexVectorDim := 1
  sliceSizes := ![1, 1, C]
  wf := wf

section Coordinates

variable {A B C N w : Nat}
  (wf : GatherDims.WF ⟨3, ![A, B, C]⟩ ⟨2, ![N, 2]⟩ ⟨2, ![N, C]⟩ [1] [0, 1] [] [0, 1] [] 1 ![1, 1, C])
  (idx : IVec ⟨2, ![N, 2]⟩ w) (y : (⟨2, ![N, C]⟩ : Shape).Idx)

/-- Axis 0 is collapsed and named first by the start index map: its coordinate is the clamped first component. -/
theorem coord0 : (pickDims A B C N wf).start y idx (0 : Fin 3) + (pickDims A B C N wf).offCoord y (0 : Fin 3)
    = min (idx (ix2 (n0 := N) (n1 := 2) (y 0) 0)).toInt.toNat (A - 1) := by
  have hc : (0 : Fin 3) ∈ (pickDims A B C N wf).collapsedSliceDims := List.mem_cons_self
  have hm : (0 : Fin 3) ∈ (pickDims A B C N wf).startIndexMap := List.mem_cons_self
  rw [GatherDims.offCoord_eq_zero _ _ _ (fun h => ((GatherDims.mem_sKept _ _).mp h).1 hc), Nat.add_zero]
  unfold GatherDims.start
  rw [dif_pos hm]
  have hsi : (pickDims A B C N wf).siIdx y ⟨List.idxOf (0 : Fin 3) (pickDims A B C N wf).startIndexMap,
      List.idxOf_lt_length_iff.2 hm⟩ = ix2 (n0 := N) (n1 := 2) (y 0) 0 := by
    funext b; refine Fin.ext ?_
    match b with
    | ⟨0, _⟩ => rfl
    | ⟨1, _⟩ => rfl
  rw [hsi]
  rfl

/-- Axis 1 likewise, with the second component. -/
theorem coord1 : (pickDims A B C N wf).start y idx (1 : Fin 3) + (pickDims A B C N wf).offCoord y (1 : Fin 3)
    = min (idx (ix2 (n0 := N) (n1 := 2) (y 0) 1)).toInt.toNat (B - 1) := by
  have hc : (1 : Fin 3) ∈ (pickDims A B C N wf).collapsedSliceDims := List.mem_cons_of_mem _ List.mem_cons_self
  have hm : (1 : Fin 3) ∈ (pickDims A B C N wf).startIndexMap := List.mem_cons_of_mem _ List.mem_cons_self
  rw [GatherDims.offCoord_eq_zero _ _ _ (fun h => ((GatherDims.mem_sKept _ _).mp h).1 hc), Nat.add_zero]
  unfold GatherDims.start
  rw [dif_pos hm]
  have hsi : (pickDims A B C N wf).siIdx y ⟨List.idxOf (1 : Fin 3) (pickDims A B C N wf).startIndexMap,
      List.idxOf_lt_length_iff.2 hm⟩ = ix2 (n0 := N) (n1 := 2) (y 0) 1 := by
    funext b; refine Fin.ext ?_
    match b with
    | ⟨0, _⟩ => rfl
    | ⟨1, _⟩ => rfl
  rw [hsi]
  rfl

/-- Axis 2 is the one kept axis: no start component, the result's offset coordinate. -/
theorem coord2 : (pickDims A B C N wf).start y idx (2 : Fin 3) + (pickDims A B C N wf).offCoord y (2 : Fin 3) = (y 1).val := by
  have hm : (2 : Fin 3) ∉ (pickDims A B C N wf).startIndexMap := (by decide : (2 : Fin 3) ∉ ([0, 1] : List (Fin 3)))
  unfold GatherDims.start
  rw [dif_neg hm, Nat.zero_add]
  rfl

end Coordinates

/-- The gather read at `(n, k)`: both start components read signed and clamped into their axes, the offset `k` on
    the last axis. -/
theorem gather_pick_apply {A B C N w : Nat} (hA : 0 < A) (hB : 0 < B)
    (wf : GatherDims.WF ⟨3, ![A, B, C]⟩ ⟨2, ![N, 2]⟩ ⟨2, ![N, C]⟩ [1] [0, 1] [] [0, 1] [] 1 ![1, 1, C])
    (x : (⟨3, ![A, B, C]⟩ : Shape).Idx → α) (idx : IVec ⟨2, ![N, 2]⟩ w) (y : (⟨2, ![N, C]⟩ : Shape).Idx) :
    Host.gather (pickDims A B C N wf) x idx y
      = x (ix3 (n0 := A) (n1 := B) (n2 := C)
            ⟨min (idx (ix2 (n0 := N) (n1 := 2) (y 0) 0)).toInt.toNat (A - 1), by omega⟩
            ⟨min (idx (ix2 (n0 := N) (n1 := 2) (y 0) 1)).toInt.toNat (B - 1), by omega⟩ (y 1)) := by
  unfold Host.gather
  congr 1
  funext a
  refine Fin.ext ?_
  show (pickDims A B C N wf).start y idx a + (pickDims A B C N wf).batchCoord y a + (pickDims A B C N wf).offCoord y a = _
  rw [GatherDims.batchCoord_eq_zero _ _ _ List.not_mem_nil, Nat.add_zero]
  match a with
  | ⟨0, _⟩ => exact coord0 wf idx y
  | ⟨1, _⟩ => exact coord1 wf idx y
  | ⟨2, _⟩ => exact coord2 wf idx y

end Cert.Proof.GatherRowCol
-- ==== Proof.Ref.lean ====
/-
  The reference's result is the pooled array. Its first piece is `x[:, 0, :]` by a slice and a reshape; its second is
  a gather at start indices `(n, 0)` — the batch number from an iota and the sequence position `lengths − 1 = 0`, each
  passed through the "negative index" normalisation `select (i < 0) (i + extent) i`, which leaves both as they are —,
  so it is `x[n, 0, :]` again; the two pieces are joined along the middle axis.
-/
import proofs.«207487_g54228257079582_cont_9to1c4b_632_7_alg».proof.Proof.Gen.ReferenceIdeal.Read
import proofs.«207487_g54228257079582_cont_9to1c4b_632_7_alg».proof.Proof.Pool
import proofs.«207487_g54228257079582_cont_9to1c4b_632_7_alg».proof.Proof.LibGatherRowCol

noncomputable section

namespace Cert.Proof.Ref

open Cert.ReferenceIdeal Cert.ReferenceIdeal.Gen Cert.ReferenceIdeal.Read
open Idealize.ShloMosaic Idealize.ShloMosaic.ValueIdx
open Cert.Proof.Pool (pooled)

/-- A batch number below 4, as a 32-bit word, is not negative: the normalisation `select (i < 0) (i + 4) i` keeps it, and
    clamped to `[0, 3]` it is itself. -/
theorem keep_row : ∀ n : Fin 4,
    min (BitVec.toInt (Scalar.select (IntOp.cmpi CmpIPredicate.slt (BitVec.ofNat 32 n.val) 0#32)
      (IntOp.addi (BitVec.ofNat 32 n.val) 4#32) (BitVec.ofNat 32 n.val))).toNat (4 - 1) = n.val := by decide

/-- The word 0 is not negative: `select (0 < 0) (0 + 4096) 0` is 0, and clamped to `[0, 4095]` it is 0. -/
theorem keep_col :
    min (BitVec.toInt (Scalar.select (IntOp.cmpi CmpIPredicate.slt (0#32 : BitVec 32) 0#32)
      (IntOp.addi (0#32 : BitVec 32) 4096#32) (0#32 : BitVec 32))).toNat (4096 - 1) = 0 := by decide

variable {F : FTy → Type} [FloatOps F]

/-- The start indices' first column is the normalised iota. -/
theorem start_fst (n : Fin 4) : val_main_v16 (F := F) (ix2 (n0 := 4) (n1 := 2) n 0) = val_main_v8 (F := F) (ix1 n) := by
  unfold val_main_v16
  rw [concatenate_pair_apply_left (t := S4x2) (s₁ := S4x1) (s₂ := S4x1) (1 : Fin 2) _ _ concatenates_S4x1_S4x1_S4x2_d1 (ix2 (n0 := 4) (n1 := 2) n 0) rfl
    (ix2 (n0 := 4) (n1 := 1) n 0) (fun b => match b with | ⟨0, _⟩ => rfl | ⟨1, _⟩ => rfl), val_main_v14_apply]
  rfl

/-- The start indices' second column is the normalised zero. -/
theorem start_snd (n : Fin 4) : val_main_v16 (F := F) (ix2 (n0 := 4) (n1 := 2) n 1) = val_main_v13 (F := F) (ix1 n) := by
  unfold val_main_v16
  rw [concatenate_pair_apply_right (t := S4x2) (s₁ := S4x1) (s₂ := S4x1) (1 : Fin 2) _ _ concatenates_S4x1_S4x1_S4x2_d1 (ix2 (n0 := 4) (n1 := 2) n 1) rfl rfl
    (ix2 (n0 := 4) (n1 := 1) n 0)
    (fun b => match b with | ⟨0, _⟩ => fun _ => rfl | ⟨1, _⟩ => fun h => absurd rfl h) rfl, val_main_v15_apply]
  rfl

/-- Batch number `n < 4` is not negative as a signed word, so the normalisation keeps it, and it is in range. -/
theorem row_start (n : Fin 4) : min (val_main_v16 (F := F) (ix2 (n0 := 4) (n1 := 2) n 0)).toInt.toNat (4 - 1) = n.val := by
  rw [start_fst, val_main_v8_apply, val_main_v5_apply, val_main_v7_apply, val_main_v3_apply, val_main_v4_apply,
    val_main_c_0_apply, val_main_v6_apply, val_main_c_1_apply]
  exact keep_row n

/-- The sequence position is the word 0: not negative, kept, in range. -/
theorem col_start (n : Fin 4) : min (val_main_v16 (F := F) (ix2 (n0 := 4) (n1 := 2) n 1)).toInt.toNat (4096 - 1) = 0 := by
  rw [start_snd, val_main_v13_apply, val_main_v10_apply, val_main_v12_apply, val_main_v2_apply, val_main_c_apply,
    val_main_v9_apply, val_main_c_2_apply, val_main_v11_apply, val_main_c_3_apply]
  exact keep_col

/-- The "last" rows: the gather at `(n, 0)` is `x[n, 0, :]`. -/
theorem last_rows (x0 : (⟨S4x4096x2048, .f32⟩ : BufTy).Contents (Elt F)) (y : S4x2048.Idx) :
    val_main_v17 (F := F) x0 y = x0 (ix3 (n0 := 4) (n1 := 4096) (n2 := 2048) (y 0) 0 (y 1)) := by
  unfold val_main_v17
  show Host.gather (GatherRowCol.pickDims 4 4096 2048 4 gather_S4x4096x2048_S4x2_S4x2048_1_01_n_n_01_1_112048_wf) x0
    (val_main_v16 (F := F)) y = _
  rw [GatherRowCol.gather_pick_apply (by decide) (by decide)]
  refine congrArg x0 (funext fun a => Fin.ext ?_)
  match a with
  | ⟨0, _⟩ => exact row_start (F := F) (y 0)
  | ⟨1, _⟩ => exact col_start (F := F) (y 0)
  | ⟨2, _⟩ => rfl

/-- The "first" rows: the slice `[:, 0:1, :]` reshaped to rank 2 is `x[n, 0, :]`. -/
theorem first_rows (x0 : (⟨S4x4096x2048, .f32⟩ : BufTy).Contents (Elt F)) (y : S4x2048.Idx) :
    val_main_v1 (F := F) x0 y = x0 (ix3 (n0 := 4) (n1 := 4096) (n2 := 2048) (y 0) 0 (y 1)) := by
  rw [val_main_v1_apply, val_main_v0_apply]
  refine congrArg x0 (funext fun a => Fin.ext ?_)
  have h1 : (y 1).val < 2048 := idx2_lt1 y
  match a with
  | ⟨0, _⟩ => show ((y 0).val * 2048 + (y 1).val) / 2048 = (y 0).val; omega
  | ⟨1, _⟩ => rfl
  | ⟨2, _⟩ => show ((y 0).val * 2048 + (y 1).val) % 2048 = (y 1).val; omega

/-- Slot 0 of the joined array is the "first" rows. -/
theorem slot0 (x0 : (⟨S4x4096x2048, .f32⟩ : BufTy).Contents (Elt F)) (b : Fin 4) (k : Fin 2048) :
    val_main_v20 (F := F) x0 (ix3 (n0 := 4) (n1 := 2) (n2 := 2048) b 0 k) = pooled x0 (ix3 (n0 := 4) (n1 := 2) (n2 := 2048) b 0 k) := by
  unfold val_main_v20
  rw [concatenate_pair_apply_left (t := S4x2x2048) (s₁ := S4x1x2048) (s₂ := S4x1x2048) (1 : Fin 3) _ _ concatenates_S4x1x2048_S4x1x2048_S4x2x2048_d1
    (ix3 (n0 := 4) (n1 := 2) (n2 := 2048) b 0 k) rfl (ix3 (n0 := 4) (n1 := 1) (n2 := 2048) b 0 k)
    (fun a => match a with | ⟨0, _⟩ => rfl | ⟨1, _⟩ => rfl | ⟨2, _⟩ => rfl), val_main_v18_apply, first_rows]
  rfl

/-- Slot 1 of the joined array is the "last" rows. -/
theorem slot1 (x0 : (⟨S4x4096x2048, .f32⟩ : BufTy).Contents (Elt F)) (b : Fin 4) (k : Fin 2048) :
    val_main_v20 (F := F) x0 (ix3 (n0 := 4) (n1 := 2) (n2 := 2048) b 1 k) = pooled x0 (ix3 (n0 := 4) (n1 := 2) (n2 := 2048) b 1 k) := by
  unfold val_main_v20
  rw [concatenate_pair_apply_right (t := S4x2x2048) (s₁ := S4x1x2048) (s₂ := S4x1x2048) (1 : Fin 3) _ _ concatenates_S4x1x2048_S4x1x2048_S4x2x2048_d1
    (ix3 (n0 := 4) (n1 := 2) (n2 := 2048) b 1 k) rfl rfl (ix3 (n0 := 4) (n1 := 1) (n2 := 2048) b 0 k)
    (fun a => match a with | ⟨0, _⟩ => fun _ => rfl | ⟨1, _⟩ => fun h => absurd rfl h | ⟨2, _⟩ => fun _ => rfl) rfl,
    val_main_v19_apply, last_rows]
  rfl

/-- The reference's result array is the pooled array of its argument. -/
theorem result_eq (x0 : (⟨S4x4096x2048, .f32⟩ : BufTy).Contents (Elt F)) : val_main_v20 (F := F) x0 = pooled x0 := by
  funext i
  obtain ⟨b, s, k, rfl⟩ : ∃ (b : Fin 4) (s : Fin 2) (k : Fin 2048), i = ix3 b s k := ⟨i 0, i 1, i 2, eq_ix3 i⟩
  match s with
  | ⟨0, _⟩ => exact slot0 x0 b k
  | ⟨1, _⟩ => exact slot1 x0 b k

end Cert.Proof.Ref

end
-- ==== Proof.lean ====
/-
  The certificate's five claims. Both programs compute the pooled array `out[b, s, k] = x[b, 0, k]` (`Pool.pooled`):
  the kernel by two copies of the rows `x[:, 0, :]` into the two slots of `out`, the reference by a slice and a gather
  that both read row 0, joined along the middle axis. Nothing is computed on the values, so the two results agree for
  every float reading and the precondition is never opened.
  * the kernel's frames: its run (`RunBits.run_main` for the program as printed, `RunIdeal.run_main` for the idealized
    one), with the result dropped;
  * the reference's frame: its run with the result dropped;
  * `preserves`: the ideal pass rewrote nothing;
  * `algebraic`: the kernel's run names `out` as `pooled x`; the reference's result term is `pooled` of its argument
    (`Ref.result_eq`), and the arguments agree.
-/
import proofs.«207487_g54228257079582_cont_9to1c4b_632_7_alg».proof.Defs
import proofs.«207487_g54228257079582_cont_9to1c4b_632_7_alg».proof.Proof.Gen.Kernel
import proofs.«207487_g54228257079582_cont_9to1c4b_632_7_alg».proof.Proof.Gen.Kernel.Skeleton
import proofs.«207487_g54228257079582_cont_9to1c4b_632_7_alg».proof.Proof.Gen.KernelIdeal
import proofs.«207487_g54228257079582_cont_9to1c4b_632_7_alg».proof.Proof.Gen.KernelIdeal.Skeleton
import proofs.«207487_g54228257079582_cont_9to1c4b_632_7_alg».proof.Proof.Gen.ReferenceIdeal
import proofs.«207487_g54228257079582_cont_9to1c4b_632_7_alg».proof.Proof.Gen.ReferenceIdeal.Run
import proofs.«207487_g54228257079582_cont_9to1c4b_632_7_alg».proof.Proof.Gen.ReferenceIdeal.Read
import proofs.«207487_g54228257079582_cont_9to1c4b_632_7_alg».proof.Proof.Gen.Pre_finite_inputs
import proofs.«207487_g54228257079582_cont_9to1c4b_632_7_alg».proof.Proof.RunBits
import proofs.«207487_g54228257079582_cont_9to1c4b_632_7_alg».proof.Proof.RunIdeal
import proofs.«207487_g54228257079582_cont_9to1c4b_632_7_alg».proof.Proof.Ref
import Idealize.ShloMosaic.Adequacy
import Idealize.ShloMosaic.Init

noncomputable section

namespace Cert.Proof

open Idealize.ShloMosaic Idealize.SL.Sem

theorem frame_kernel : Cert.frame_Kernel := fun m ρ _ =>
  (θ_run Cert.Kernel.defs _ _).mono (fun _ h c => (h c).2) (RunBits.run_main (F := Bits) m ρ)

theorem frame_kernelIdeal : Cert.frame_KernelIdeal := fun m ρ _ =>
  (θ_run Cert.KernelIdeal.defs _ _).mono (fun _ h c => (h c).2) (RunIdeal.run_main (F := Ideal) m ρ)

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Pool.pooled (m (RunIdeal.xLoc c)), RunIdeal.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Ref.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
